-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 79
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x16, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x16, .f32⟩
  | .hbm, ⟨52, _⟩ => ⟨S3300000x1, .f32⟩
  | .hbm, ⟨53, _⟩ => ⟨S3300000x16, .f32⟩
  | .hbm, ⟨54, _⟩ => ⟨S3300000x16, .f32⟩
  | .hbm, ⟨55, _⟩ => ⟨S_, .f32⟩
  | .hbm, ⟨56, _⟩ => ⟨S100000x16, .f32⟩
  | .hbm, ⟨57, _⟩ => ⟨S3300000x1, .i32⟩
  | .hbm, ⟨58, _⟩ => ⟨S100000x16, .f32⟩
  | .hbm, ⟨59, _⟩ => ⟨S1x16, .f32⟩
  | .hbm, ⟨60, _⟩ => ⟨S100000x1, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x1, .f32⟩
  | .hbm, ⟨70, _⟩ => ⟨S3300000x1, .f32⟩
  | .hbm, ⟨71, _⟩ => ⟨S3300000x1, .f32⟩
  | .hbm, ⟨72, _⟩ => ⟨S_, .f32⟩
  | .hbm, ⟨73, _⟩ => ⟨S100000x1, .f32⟩
  | .hbm, ⟨74, _⟩ => ⟨S3300000x1, .i32⟩
  | .hbm, ⟨75, _⟩ => ⟨S100000x1, .f32⟩
  | .hbm, ⟨76, _⟩ => ⟨S1x1, .f32⟩
  | .hbm, ⟨77, _⟩ => ⟨S100000x1, .f32⟩
  | .hbm, ⟨78, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x16, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x16, .f32⟩
  | .hbm, ⟨52, _⟩ => ⟨S3300000x1, .f32⟩
  | .hbm, ⟨53, _⟩ => ⟨S3300000x16, .f32⟩
  | .hbm, ⟨54, _⟩ => ⟨S3300000x16, .f32⟩
  | .hbm, ⟨55, _⟩ => ⟨S_, .f32⟩
  | .hbm, ⟨56, _⟩ => ⟨S100000x16, .f32⟩
  | .hbm, ⟨57, _⟩ => ⟨S3300000x1, .i32⟩
  | .hbm, ⟨58, _⟩ => ⟨S100000x16, .f32⟩
  | .hbm, ⟨59, _⟩ => ⟨S1x16, .f32⟩
  | .hbm, ⟨60, _⟩ => ⟨S100000x16, .f32⟩
  | .hbm, ⟨61, _⟩ => ⟨S100000x16, .f32⟩
  | .hbm, ⟨62, _⟩ => ⟨S_, .f32⟩
  | .hbm, ⟨63, _⟩ => ⟨S100000x16, .f32⟩
  | .hbm, ⟨64, _⟩ => ⟨S100000x16, .f32⟩
  | .hbm, ⟨65, _⟩ => ⟨S100000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000, .f32⟩
  | .hbm, ⟨84, _⟩ => ⟨S3300000, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000x1, .f32⟩
  | .hbm, ⟨94, _⟩ => ⟨S3300000x1, .f32⟩
  | .hbm, ⟨95, _⟩ => ⟨S3300000x1, .f32⟩
  | .hbm, ⟨96, _⟩ => ⟨S_, .f32⟩
  | .hbm, ⟨97, _⟩ => ⟨S100000x1, .f32⟩
  | .hbm, ⟨98, _⟩ => ⟨S3300000x1, .i32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S100000x128_S128x16_S100000x16_1_0_0_1_n_n_wf : DotDims.WF S100000x128 S128x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with its result named.

  @main is five segments: a stretch of host operations, the first pallas_call, a second stretch, the second
  pallas_call, and a last stretch. The buffer contents at the segment boundaries are the fold W0 … W5 of the
  frame module (a host stretch rewrites the buffers its operations write; a pallas_call leaves each of its arrays at
  what its write-backs fold to and every other buffer alone). Every weakly fair execution terminates with every
  unscoped buffer at the last boundary's contents W5; read at the result buffer this names the result, and read at
  the six argument buffers it says they end as launched.
-/
import proofs.«178024_j37598143709464_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_main : θ_run defs (onTc (τ := τ) (main (F := F))) ⟨m, fun _ => 0, ρ⟩ (fun r => ∀ c : Dev nD,
      r.2.mem ((c.tc : Thread nD τ).loc main_v59) = W5 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v59 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.HostParts.lean ====
/-
  The host code around the two pallas_calls, as whole-array functions of what it reads.

  A graph on 100000 nodes is given as a 2 x 3200000 list of directed edges; row 0 holds the source node of each edge,
  row 1 its destination. Every node gets a self-loop, so the lists of sources and destinations have 3300000 entries:
  a row of the edge list followed by 0, 1, …, 99999 (sources, destinations). The degree of a node counts the entries of
  the destination list that name it (a scatter-add of ones into zeros); its weight is rsqrt(max(degree, 1)); an edge's
  coefficient (edgeCoeff) is the product of the weights of its two ends, each looked up by a gather at the node number,
  a negative number first wrapped by adding 100000 (wrapCol).

  One round of message passing (propagate16 on 16 feature columns, propagate1 on one) gathers the rows of a node table at
  the sources, scales row e by the coefficient of edge e, and scatter-adds row e into the row of the result named by
  destination e, starting from zeros. addBias1 adds a one-entry bias to every row of a one-column table.
-/
import proofs.«178024_j37598143709464_1_alg».proof.KernelIdeal
import proofs.«178024_j37598143709464_1_alg».proof.Proof.Gen.KernelIdeal

noncomputable section

namespace Cert.KernelIdeal.Host

open Cert.KernelIdeal Cert.KernelIdeal.Facts₀ Cert.KernelIdeal.Facts Idealize.ShloMosaic

variable {F : FTy → Type} [FloatOps F]

/-- The source of every edge, then the self-loops' 0 … 99999. -/
def sources (e : (⟨S2x3200000, .i32⟩ : BufTy).Contents (Elt F)) : (⟨S3300000, .i32⟩ : BufTy).Contents (Elt F) :=
  concatenate S3300000 0
    [⟨S3200000, (shapeCast _ (extractStridedSlice S1x3200000 ![0, 0] e slices_S2x3200000_S1x3200000_0_0) shapeCasts_S1x3200000_S3200000 : (⟨S3200000, .i32⟩ : BufTy).Contents (Elt F))⟩,
     ⟨S100000, (iotaInDim S100000 32 0 : (⟨S100000, .i32⟩ : BufTy).Contents (Elt F))⟩]
    concatenates_S3200000_S100000_S3300000_d0

/-- The destination of every edge, then the self-loops' 0 … 99999. -/
def destinations (e : (⟨S2x3200000, .i32⟩ : BufTy).Contents (Elt F)) : (⟨S3300000, .i32⟩ : BufTy).Contents (Elt F) :=
  concatenate S3300000 0
    [⟨S3200000, (shapeCast _ (extractStridedSlice S1x3200000 ![1, 0] e slices_S2x3200000_S1x3200000_1_0) shapeCasts_S1x3200000_S3200000 : (⟨S3200000, .i32⟩ : BufTy).Contents (Elt F))⟩,
     ⟨S100000, (iotaInDim S100000 32 0 : (⟨S100000, .i32⟩ : BufTy).Contents (Elt F))⟩]
    concatenates_S3200000_S100000_S3300000_d0

/-- A list of node numbers as a column of gather indices, a negative number wrapped by adding 100000. -/
def wrapCol (idx : (⟨S3300000, .i32⟩ : BufTy).Contents (Elt F)) : (⟨S3300000x1, .i32⟩ : BufTy).Contents (Elt F) :=
  broadcastInDim S3300000x1 ![0] bcast_S3300000_S3300000x1_0
    (select (cmpi .slt idx (broadcastInDim S3300000 ![] bcast_S_S3300000 (constantI S_ 32 0#32)))
      (addi idx (broadcastInDim S3300000 ![] bcast_S_S3300000 (constantI S_ 32 100000#32)))
      idx)

/-- Each node's weight rsqrt(max(degree, 1)), the degree counted over the destination list. -/
def nodeWeight (dst : (⟨S3300000, .i32⟩ : BufTy).Contents (Elt F)) : (⟨S100000, .f32⟩ : BufTy).Contents (Elt F) :=
  Host.rsqrt (maximumf
    (Host.scatterAdd scatter_S100000_S3300000x1_S3300000_n_0_0_1
      (broadcastInDim S100000 ![] bcast_S_S100000 (constant S_ .f32 0x00000000#32))
      (broadcastInDim S3300000x1 ![0] bcast_S3300000_S3300000x1_0 dst)
      (broadcastInDim S3300000 ![] bcast_S_S3300000 (constant S_ .f32 0x3F800000#32)))
    (broadcastInDim S100000 ![] bcast_S_S100000 (constant S_ .f32 0x3F800000#32)))

/-- Each edge's coefficient: the weight of its source times the weight of its destination. -/
def edgeCoeff (src dst : (⟨S3300000, .i32⟩ : BufTy).Contents (Elt F)) : (⟨S3300000, .f32⟩ : BufTy).Contents (Elt F) :=
  mulf (Host.gather gather_S100000_S3300000x1_S3300000_n_0_n_n_0_1_1 (nodeWeight dst) (wrapCol src))
    (Host.gather gather_S100000_S3300000x1_S3300000_n_0_n_n_0_1_1 (nodeWeight dst) (wrapCol dst))

/-- One round of message passing on a table of 16 columns. -/
def propagate16 (h : (⟨S100000x16, .f32⟩ : BufTy).Contents (Elt F)) (src dst : (⟨S3300000, .i32⟩ : BufTy).Contents (Elt F))
    (coeff : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst)
    (mulf (Host.gather gather_S100000x16_S3300000x1_S3300000x16_1_0_n_n_0_1_116 h (wrapCol src))
      (broadcastInDim S3300000x16 ![0, 1] bcast_S3300000x1_S3300000x16_0_1
        (broadcastInDim S3300000x1 ![0] bcast_S3300000_S3300000x1_0 coeff)))

/-- One round of message passing on a table of one column. -/
def propagate1 (h : (⟨S100000x1, .f32⟩ : BufTy).Contents (Elt F)) (src dst : (⟨S3300000, .i32⟩ : BufTy).Contents (Elt F))
    (coeff : (⟨S3300000, .f32⟩ : BufTy).Contents (Elt F)) : (⟨S100000x1, .f32⟩ : BufTy).Contents (Elt F) :=
  Host.scatterAdd scatter_S100000x1_S3300000x1_S3300000x1_1_0_0_1
    (broadcastInDim S100000x1 ![] bcast_S_S100000x1 (constant S_ .f32 0x00000000#32))
    (broadcastInDim S3300000x1 ![0] bcast_S3300000_S3300000x1_0 dst)
    (mulf (Host.gather gather_S100000x1_S3300000x1_S3300000x1_1_0_n_n_0_1_11 h (wrapCol src))
      (broadcastInDim S3300000x1 ![0] bcast_S3300000_S3300000x1_0 coeff))

/-- A one-entry bias added to every row of a one-column table. -/
def addBias1 (a : (⟨S100000x1, .f32⟩ : BufTy).Contents (Elt F)) (b : (⟨S1, .f32⟩ : BufTy).Contents (Elt F)) :
    (⟨S100000x1, .f32⟩ : BufTy).Contents (Elt F) :=
  addf a (broadcastInDim S100000x1 ![0, 1] bcast_S1x1_S100000x1_0_1 (broadcastInDim S1x1 ![1] bcast_S1_S1x1_1 b))

end Cert.KernelIdeal.Host

end
-- ==== Proof.Fold1.lean ====
/-
  The buffers when the first pallas_call is entered (after the first stretch of host operations, from the launch memory).

  The stretch computes, from the edge list alone, the lists of sources and destinations and the edge coefficients; it
  writes none of the six argument buffers.
-/
import proofs.«178024_j37598143709464_1_alg».proof.Proof.Gen.KernelIdeal.Frame
import proofs.«178024_j37598143709464_1_alg».proof.Proof.HostParts
import Idealize.ShloMosaic.Lib.StableHlo.Run

set_option maxRecDepth 16384

noncomputable section

namespace Cert.KernelIdeal.Fold

open Cert.KernelIdeal Cert.KernelIdeal.Facts₀ Cert.KernelIdeal.Facts Cert.KernelIdeal.Gen Cert.KernelIdeal.Host
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The list of sources. -/
theorem w1_v3 : W1 m ρ c (Proc.devRef .tc main_v3) = sources (m ((c : Thread nD τ).loc main_arg1)) := by
  show StableHlo.after hostOps0 (W0 m ρ c) (Proc.devRef .tc main_v3) = _
  after_results_simp
  rfl
/-- The list of destinations. -/
theorem w1_v6 : W1 m ρ c (Proc.devRef .tc main_v6) = destinations (m ((c : Thread nD τ).loc main_arg1)) := by
  show StableHlo.after hostOps0 (W0 m ρ c) (Proc.devRef .tc main_v6) = _
  after_results_simp
  rfl
/-- The edge coefficients. -/
theorem w1_v28 : W1 m ρ c (Proc.devRef .tc main_v28)
    = edgeCoeff (sources (m ((c : Thread nD τ).loc main_arg1))) (destinations (m ((c : Thread nD τ).loc main_arg1))) := by
  show StableHlo.after hostOps0 (W0 m ρ c) (Proc.devRef .tc main_v28) = _
  after_results_simp
  rfl
/-- The arguments are as launched. -/
theorem w1_arg0 : W1 m ρ c (Proc.devRef .tc main_arg0) = m ((c : Thread nD τ).loc main_arg0) := by
  show StableHlo.after hostOps0 (W0 m ρ c) (Proc.devRef .tc main_arg0) = _
  after_results_simp
theorem w1_arg2 : W1 m ρ c (Proc.devRef .tc main_arg2) = m ((c : Thread nD τ).loc main_arg2) := by
  show StableHlo.after hostOps0 (W0 m ρ c) (Proc.devRef .tc main_arg2) = _
  after_results_simp
theorem w1_arg3 : W1 m ρ c (Proc.devRef .tc main_arg3) = m ((c : Thread nD τ).loc main_arg3) := by
  show StableHlo.after hostOps0 (W0 m ρ c) (Proc.devRef .tc main_arg3) = _
  after_results_simp
theorem w1_arg4 : W1 m ρ c (Proc.devRef .tc main_arg4) = m ((c : Thread nD τ).loc main_arg4) := by
  show StableHlo.after hostOps0 (W0 m ρ c) (Proc.devRef .tc main_arg4) = _
  after_results_simp
theorem w1_arg5 : W1 m ρ c (Proc.devRef .tc main_arg5) = m ((c : Thread nD τ).loc main_arg5) := by
  show StableHlo.after hostOps0 (W0 m ρ c) (Proc.devRef .tc main_arg5) = _
  after_results_simp

end Cert.KernelIdeal.Fold

end
-- ==== Proof.Fold3.lean ====
/-
  The buffers when the second pallas_call is entered (after the second stretch of host operations, from the buffers
  the first pallas_call leaves).

  The stretch does one round of message passing on the first pallas_call's output and recasts the 16-entry bias as a
  1 x 16 row; it leaves the lists of sources and destinations, the coefficients and the remaining arguments alone.
-/
import proofs.«178024_j37598143709464_1_alg».proof.Proof.Gen.KernelIdeal.Frame
import proofs.«178024_j37598143709464_1_alg».proof.Proof.HostParts
import Idealize.ShloMosaic.Lib.StableHlo.Run

set_option maxRecDepth 16384

noncomputable section

namespace Cert.KernelIdeal.Fold

open Cert.KernelIdeal Cert.KernelIdeal.Facts₀ Cert.KernelIdeal.Facts Cert.KernelIdeal.Gen Cert.KernelIdeal.Host
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The first round of message passing, on what the first pallas_call left. -/
theorem w3_v42 : W3 m ρ c (Proc.devRef .tc main_v42)
    = propagate16 (W2 m ρ c (Proc.devRef .tc main_v29)) (W2 m ρ c (Proc.devRef .tc main_v3)) (W2 m ρ c (Proc.devRef .tc main_v6))
        (W2 m ρ c (Proc.devRef .tc main_v28)) := by
  show StableHlo.after hostOps1 (W2 m ρ c) (Proc.devRef .tc main_v42) = _
  after_results_simp
  rfl
/-- The bias as a row. -/
theorem w3_v43 : W3 m ρ c (Proc.devRef .tc main_v43)
    = shapeCast S1x16 (W2 m ρ c (Proc.devRef .tc main_arg3)) Facts₀.shapeCasts_S16_S1x16 := by
  show StableHlo.after hostOps1 (W2 m ρ c) (Proc.devRef .tc main_v43) = _
  after_results_simp
  rfl
/-- What the stretch does not write. -/
theorem w3_arg4 : W3 m ρ c (Proc.devRef .tc main_arg4) = W2 m ρ c (Proc.devRef .tc main_arg4) := by
  show StableHlo.after hostOps1 (W2 m ρ c) (Proc.devRef .tc main_arg4) = _
  after_results_simp
theorem w3_arg5 : W3 m ρ c (Proc.devRef .tc main_arg5) = W2 m ρ c (Proc.devRef .tc main_arg5) := by
  show StableHlo.after hostOps1 (W2 m ρ c) (Proc.devRef .tc main_arg5) = _
  after_results_simp
theorem w3_v3 : W3 m ρ c (Proc.devRef .tc main_v3) = W2 m ρ c (Proc.devRef .tc main_v3) := by
  show StableHlo.after hostOps1 (W2 m ρ c) (Proc.devRef .tc main_v3) = _
  after_results_simp
theorem w3_v6 : W3 m ρ c (Proc.devRef .tc main_v6) = W2 m ρ c (Proc.devRef .tc main_v6) := by
  show StableHlo.after hostOps1 (W2 m ρ c) (Proc.devRef .tc main_v6) = _
  after_results_simp
theorem w3_v28 : W3 m ρ c (Proc.devRef .tc main_v28) = W2 m ρ c (Proc.devRef .tc main_v28) := by
  show StableHlo.after hostOps1 (W2 m ρ c) (Proc.devRef .tc main_v28) = _
  after_results_simp

end Cert.KernelIdeal.Fold

end
-- ==== Proof.Fold5.lean ====
/-
  The result buffer at the return (after the last stretch of host operations, from the buffers the second pallas_call
  leaves): the second round of message passing on the second pallas_call's output, plus the last bias.
-/
import proofs.«178024_j37598143709464_1_alg».proof.Proof.Gen.KernelIdeal.Frame
import proofs.«178024_j37598143709464_1_alg».proof.Proof.HostParts
import Idealize.ShloMosaic.Lib.StableHlo.Run

set_option maxRecDepth 16384

noncomputable section

namespace Cert.KernelIdeal.Fold

open Cert.KernelIdeal Cert.KernelIdeal.Facts₀ Cert.KernelIdeal.Facts Cert.KernelIdeal.Gen Cert.KernelIdeal.Host
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The result. -/
theorem w5_v59 : W5 m ρ c (Proc.devRef .tc main_v59)
    = addBias1 (propagate1 (W4 m ρ c (Proc.devRef .tc main_v44)) (W4 m ρ c (Proc.devRef .tc main_v3)) (W4 m ρ c (Proc.devRef .tc main_v6))
        (W4 m ρ c (Proc.devRef .tc main_v28))) (W4 m ρ c (Proc.devRef .tc main_arg5)) := by
  show StableHlo.after hostOps2 (W4 m ρ c) (Proc.devRef .tc main_v59) = _
  after_results_simp
  rfl

end Cert.KernelIdeal.Fold

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowBlocks.lean ====
/-
  Row blocks of a product and of a bias row, at the extended reals.

  For arrays read as functions of a (row, column) index into the extended reals:

    mm x w (p, q)      = Σ_k x (p, k) · w (k, q)          -- an M x K by K x N product
    addRow  a b (p, q) = a (p, q) + b (0, q)               -- a 1 x N row added to every row
    reluRow a b (p, q) = max (a (p, q) + b (0, q)) 0       -- the same, then the maximum with zero

  and, for a computation that works on the rows in blocks: if what is computed on a block of Mb rows is the product (or
  the pointwise formula) of the blocks it loaded, each loaded block being its array read at rows o .. o + Mb (all
  columns; the second operand of a product read whole), then the result block is the whole-array function read at the
  same rows (blk_mm, blk_row).  The blocks' positions enter only through the coordinates of their embeddings, so the
  lemmas serve any row-tiled pipeline: instantiate the embeddings at the windows' blocks and discharge the six coordinate
  facts by arithmetic.
-/
import Idealize.ShloMosaic.PureOps.Ideal
import Idealize.ShloMosaic.Lib.ValueIdx

noncomputable section

open scoped BigOperators

namespace Idealize.ShloMosaic.ValueIdx

open Idealize.ShloMosaic

/-- The product of an M x K array with a K x N array: entry (p, q) is the sum over the inner position. -/
def mm (M K N : ℕ) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A 1 x N row added to every row of an M x N array. -/
def addRow (M N : ℕ) (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- A 1 x N row added to every row of an M x N array, then the maximum with zero. -/
def reluRow (M N : ℕ) (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) 0

theorem mm_ix2 (M K N : ℕ) (x w) (p : Fin M) (q : Fin N) : mm M K N x w (ix2 p q) = ∑ k : Fin K, x (ix2 p k) * w (ix2 k q) := rfl
theorem addRow_ix2 (M N : ℕ) (a b) (p : Fin M) (q : Fin N) : addRow M N a b (ix2 p q) = a (ix2 p q) + b (ix2 (0 : Fin 1) q) := rfl
theorem reluRow_ix2 (M N : ℕ) (a b) (p : Fin M) (q : Fin N) : reluRow M N a b (ix2 p q) = max (a (ix2 p q) + b (ix2 (0 : Fin 1) q)) 0 := rfl

/-! ## A block of rows is the block of the whole-array function

  A region cuts the rows into blocks; point t works on rows o .. o + Mb of its arrays (o the block's first row), all
  columns.  If what the body computes on the block is the product (or the bias formula) of the blocks it loaded, and each
  loaded block is its array read at the block's rows, then the result block is the whole-array product (or bias formula)
  read at the block's rows.  The blocks' positions enter only through the coordinates of their embeddings. -/

theorem hz2 : (![0, 0] : Fin 2 → Nat) = fun _ => 0 := funext fun a => by fin_cases a <;> rfl

/-- A product block: rows o .. o + Mb of x · w are (rows o .. o + Mb of x) · w. -/
theorem blk_mm {Mb M K N : ℕ} (pay : (⟨2, ![Mb, N]⟩ : Shape).Idx → EReal)
    (x0 : (⟨2, ![Mb, K]⟩ : Shape).Idx → EReal) (x1 : (⟨2, ![K, N]⟩ : Shape).Idx → EReal)
    (hpay : ∀ (p : Fin Mb) (q : Fin N), pay (ix2 p q) = ∑ k : Fin K, x0 (ix2 p k) * x1 (ix2 k q))
    (A0 : (⟨2, ![M, K]⟩ : Shape).Idx → EReal) (A1 : (⟨2, ![K, N]⟩ : Shape).Idx → EReal)
    (e0 : (⟨2, ![Mb, K]⟩ : Shape).Idx → (⟨2, ![M, K]⟩ : Shape).Idx)
    (e1 : (⟨2, ![K, N]⟩ : Shape).Idx → (⟨2, ![K, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val) (h21 : ∀ y, ((e2 y) 1).val = (y 1).val)
    (j : (⟨2, ![Mb, N]⟩ : Shape).Idx) : pay j = mm M K N A0 A1 (e2 j) := by
  obtain ⟨p, q, rfl⟩ : ∃ (p : Fin Mb) (q : Fin N), j = ix2 p q := ⟨j 0, j 1, eq_ix2 j⟩
  rw [hpay]
  show _ = ∑ k : Fin K, A0 (ix2 ((e2 (ix2 p q)) 0) k) * A1 (ix2 k ((e2 (ix2 p q)) 1))
  refine Finset.sum_congr rfl fun k _ => ?_
  rw [hx0, hx1]
  have a0 : e0 (ix2 p k) = ix2 ((e2 (ix2 p q)) 0) k := funext fun a => Fin.ext (by
    match a with
    | ⟨0, _⟩ => exact (h00 (ix2 p k)).trans (h20 (ix2 p q)).symm
    | ⟨1, _⟩ => exact h01 (ix2 p k))
  have a1 : e1 (ix2 k q) = ix2 k ((e2 (ix2 p q)) 1) := funext fun a => Fin.ext (by
    match a with
    | ⟨0, _⟩ => exact h10 (ix2 k q)
    | ⟨1, _⟩ => exact (h11 (ix2 k q)).trans (h21 (ix2 p q)).symm)
  rw [a0, a1]
  rfl

/-- A bias-row block: on rows o .. o + Mb, a pointwise f of the array's entry and the row's entry in that column. -/
theorem blk_row {Mb M N : ℕ} (f : EReal → EReal → EReal) (pay : (⟨2, ![Mb, N]⟩ : Shape).Idx → EReal)
    (x0 : (⟨2, ![Mb, N]⟩ : Shape).Idx → EReal) (x1 : (⟨2, ![1, N]⟩ : Shape).Idx → EReal)
    (hpay : ∀ (p : Fin Mb) (q : Fin N), pay (ix2 p q) = f (x0 (ix2 p q)) (x1 (ix2 (0 : Fin 1) q)))
    (A0 : (⟨2, ![M, N]⟩ : Shape).Idx → EReal) (A1 : (⟨2, ![1, N]⟩ : Shape).Idx → EReal)
    (e0 : (⟨2, ![Mb, N]⟩ : Shape).Idx → (⟨2, ![M, N]⟩ : Shape).Idx)
    (e1 : (⟨2, ![1, N]⟩ : Shape).Idx → (⟨2, ![1, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y))
    (h0 : ∀ y (a : Fin 2), ((e0 y) a).val = ((e2 y) a).val)
    (h11 : ∀ y, ((e1 y) 1).val = (y 1).val) (h21 : ∀ y, ((e2 y) 1).val = (y 1).val)
    (j : (⟨2, ![Mb, N]⟩ : Shape).Idx) : pay j = f (A0 (e2 j)) (A1 (ix2 (0 : Fin 1) ((e2 j) 1))) := by
  obtain ⟨p, q, rfl⟩ : ∃ (p : Fin Mb) (q : Fin N), j = ix2 p q := ⟨j 0, j 1, eq_ix2 j⟩
  rw [hpay, hx0, hx1]
  have a0 : e0 (ix2 p q) = e2 (ix2 p q) := funext fun a => Fin.ext (h0 (ix2 p q) a)
  have a1 : e1 (ix2 (0 : Fin 1) q) = ix2 (0 : Fin 1) ((e2 (ix2 p q)) 1) := funext fun a => Fin.ext (by
    match a with
    | ⟨0, _⟩ =>
      show ((e1 (ix2 (0 : Fin 1) q)) 0).val = 0
      exact Nat.lt_one_iff.mp ((e1 (ix2 (0 : Fin 1) q)) 0).isLt
    | ⟨1, _⟩ => exact (h11 (ix2 (0 : Fin 1) q)).trans (h21 (ix2 p q)).symm)
  rw [a0, a1]
  rfl

end Idealize.ShloMosaic.ValueIdx

end
-- ==== Proof.Payloads.lean ====
/-
  What each pallas_call's body computes on one block of rows, read at a (row, column), on the extended reals.

  First body: a block of 10000 rows of x (128 columns) and the whole of W1 (128 x 16) are narrowed to bf16 — the
  identity on extended reals — and multiplied on the matrix unit into a zero accumulator, so entry (p, q) of the
  stored block is  Σ_k x(p, k) · W1(k, q).

  Second body: a block a of 10000 rows (16 columns), the bias row b (1 x 16) broadcast down the rows, their sum, the
  maximum with a splat zero, narrowed to bf16 (the identity again) and multiplied with W2 (16 x 1) into zeros: entry
  (p, q) is  Σ_k max(a(p, k) + b(0, k), 0) · W2(k, q).
-/
import proofs.«178024_j37598143709464_1_alg».proof.Proof.Gen.KernelIdeal.Skeleton
import proofs.«178024_j37598143709464_1_alg».proof.Proof.LibDotIx2
import proofs.«178024_j37598143709464_1_alg».proof.Proof.LibRowBlocks
import Idealize.ShloMosaic.Lib.Pipeline.Value
import Idealize.ShloMosaic.Lib.ValueIdx
import Idealize.ShloMosaic.PureOps.Ideal.Laws

noncomputable section

open scoped BigOperators

namespace Cert.KernelIdeal.Blocks

open Cert.KernelIdeal Cert.KernelIdeal.Gen Idealize.ShloMosaic Idealize.ShloMosaic.ValueIdx

/-- The first product contracts the left operand's columns with the right operand's rows and batches nothing. -/
theorem plain0 : PlainDot dot_S10000x128_S128x16_S10000x16_1_0_0_1_n_n where
  rank := rfl
  size := rfl
  l0 := fun j q => by
    unfold DotDims.lhsIdx
    rw [dif_neg (show ¬(0 : Fin S10000x128.rank) ∈ dot_S10000x128_S128x16_S10000x16_1_0_0_1_n_n.lhsBatch by decide),
      dif_pos (show (0 : Fin S10000x128.rank) ∈ dot_S10000x128_S128x16_S10000x16_1_0_0_1_n_n.lhsNonContracting by decide)]
    rfl
  l1 := fun j q => dot_S10000x128_S128x16_S10000x16_1_0_0_1_n_n.lhsIdx_val_of_single rfl j q
  r0 := fun j q => dot_S10000x128_S128x16_S10000x16_1_0_0_1_n_n.rhsIdx_val_of_single rfl j q
  r1 := fun j q => by
    unfold DotDims.rhsIdx
    rw [dif_neg (show ¬(1 : Fin S128x16.rank) ∈ dot_S10000x128_S128x16_S10000x16_1_0_0_1_n_n.rhsBatch by decide),
      dif_pos (show (1 : Fin S128x16.rank) ∈ dot_S10000x128_S128x16_S10000x16_1_0_0_1_n_n.rhsNonContracting by decide)]
    rfl

/-- So does the second. -/
theorem plain1 : PlainDot dot_S10000x16_S16x1_S10000x1_1_0_0_1_n_n where
  rank := rfl
  size := rfl
  l0 := fun j q => by
    unfold DotDims.lhsIdx
    rw [dif_neg (show ¬(0 : Fin S10000x16.rank) ∈ dot_S10000x16_S16x1_S10000x1_1_0_0_1_n_n.lhsBatch by decide),
      dif_pos (show (0 : Fin S10000x16.rank) ∈ dot_S10000x16_S16x1_S10000x1_1_0_0_1_n_n.lhsNonContracting by decide)]
    rfl
  l1 := fun j q => dot_S10000x16_S16x1_S10000x1_1_0_0_1_n_n.lhsIdx_val_of_single rfl j q
  r0 := fun j q => dot_S10000x16_S16x1_S10000x1_1_0_0_1_n_n.rhsIdx_val_of_single rfl j q
  r1 := fun j q => by
    unfold DotDims.rhsIdx
    rw [dif_neg (show ¬(1 : Fin S16x1.rank) ∈ dot_S10000x16_S16x1_S10000x1_1_0_0_1_n_n.rhsBatch by decide),
      dif_pos (show (1 : Fin S16x1.rank) ∈ dot_S10000x16_S16x1_S10000x1_1_0_0_1_n_n.rhsNonContracting by decide)]
    rfl

/-- The first body's stored block at (p, q): the sum over the 128 inner positions. -/
theorem pay0_ix2 (x0 : Vec Ideal S10000x128 .f32) (x1 : Vec Ideal S128x16 .f32) (p : Fin 10000) (q : Fin 16) :
    k0_pay1 (F := Ideal) x0 x1 (ix2 p q) = ∑ k : Fin 128, (x0 (ix2 p k) : EReal) * (x1 (ix2 k q) : EReal) := by
  unfold k0_pay1
  exact matmul_zero_ix2_any plain0 none _ _ p q

/-- The bias row broadcast down the rows reads, at (p, k), the row at (0, k). -/
theorem biasRow_ix2 (x1 : Vec Ideal S1x16 .f32) (p : Fin 10000) (k : Fin 16) :
    broadcastTo S10000x16 (shapeCast S1x16 x1 shapeCasts_S1x16_S1x16) broadcasts_S1x16_S10000x16 (ix2 p k)
      = x1 (ix2 (0 : Fin 1) k) := by
  rw [shapeCast_self]
  refine broadcastTo_apply x1 broadcasts_S1x16_S10000x16 (ix2 p k) (ix2 (0 : Fin 1) k) fun a => ?_
  match a with
  | ⟨0, _⟩ => rfl
  | ⟨1, _⟩ => rfl

/-- The second body's stored block at (p, q): the sum over the 16 inner positions of relu(a + b) times W2. -/
theorem pay1_ix2 (x0 : Vec Ideal S10000x16 .f32) (x1 : Vec Ideal S1x16 .f32) (x2 : Vec Ideal S16x1 .f32) (p : Fin 10000) (q : Fin 1) :
    k1_pay1 (F := Ideal) x0 x1 x2 (ix2 p q)
      = ∑ k : Fin 16, reluRow 10000 16 x0 x1 (ix2 p k) * (x2 (ix2 k q) : EReal) := by
  unfold k1_pay1
  refine (matmul_zero_ix2_any plain1 none _ _ p q).trans ?_
  refine Finset.sum_congr rfl fun k _ => ?_
  refine congrArg (· * (x2 (ix2 k q) : EReal)) ?_
  show max ((shapeCast S10000x16 x0 shapeCasts_S10000x16_S10000x16 (ix2 p k) : EReal)
      + broadcastTo S10000x16 (shapeCast S1x16 x1 shapeCasts_S1x16_S1x16) broadcasts_S1x16_S10000x16 (ix2 p k))
      (Ideal.ofBits .f32 0x00000000#32) = _
  rw [shapeCast_self, biasRow_ix2, Ideal.ofBits_zero_f32]
  rfl

end Cert.KernelIdeal.Blocks

end
-- ==== Proof.Region0.lean ====
/-
  The first pallas_call's output array after its ten grid points: the whole product.

  Point t reads rows 10000·t … 10000·t + 9999 of its first array A0 (100000 x 128, all columns) and the whole of its
  second array A1 (128 x 16), and writes back rows 10000·t … 10000·t + 9999 of the output (100000 x 16, all columns).
  What it writes back is therefore block t of the one whole-array function  (r, c) ↦ Σ_k A0(r, k) · A1(k, c),  and the
  ten blocks tile the output's rows (row r lies in block r / 10000), so the array ends holding that function.
-/
import proofs.«178024_j37598143709464_1_alg».proof.Proof.Gen.KernelIdeal.Frame
import proofs.«178024_j37598143709464_1_alg».proof.Proof.Payloads
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: the row block of the first input and of the output is the grid point's, every
    other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product of the arrays as the region finds them. -/
theorem flushed0_eq (c : Dev nD) (t : Fin cfg0.N) :
    (dat0 V c).flushed 2 t
      = ((cfg0.win 2).blk t).view.read (Elt Ideal) (mm 100000 128 16 (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x16) hz2]
  obtain ⟨e0, e1, e2, e3, e4⟩ := idx_facts0 t
  funext j
  refine blk_mm (k0_pay1 (iblk0 V c 0 t) (iblk0 V c 1 t)) (iblk0 V c 0 t) (iblk0 V c 1 t)
    (fun p q => pay0_ix2 (iblk0 V c 0 t) (iblk0 V c 1 t) p q) (V c main_arg0) (V c main_arg2)
    ((cfg0.win 0).blk t).view.emb ((cfg0.win 1).blk t).view.emb ((cfg0.win 2).blk t).view.emb
    (fun y => rfl) (fun y => rfl) (win0_2.index t (0 : Fin 2) * 10000) ?_ ?_ ?_ ?_ ?_ ?_ j
  · intro y; show win0_0.index t (0 : Fin 2) * 10000 + 1 * (y 0).val = _; omega
  · intro y; show win0_0.index t (1 : Fin 2) * 128 + 1 * (y 1).val = _; omega
  · intro y; show win0_1.index t (0 : Fin 2) * 128 + 1 * (y 0).val = _; omega
  · intro y; show win0_1.index t (1 : Fin 2) * 16 + 1 * (y 1).val = _; omega
  · intro y; show win0_2.index t (0 : Fin 2) * 10000 + 1 * (y 0).val = _; omega
  · intro y; show win0_2.index t (1 : Fin 2) * 16 + 1 * (y 1).val = _; omega

/-- An index of the output is in point t's block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v29).slice (win0_2.rect t)).set ↔ _
  rw [View.set_slice_whole, Rect.mem_set_unit]
  exact Iff.rfl

/-- Every index of the output lies in some point's block: row r in block r / 10000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array after the region: the whole product of the two input arrays as the region finds them. -/
theorem final0 (c : Dev nD) :
    (dat0 V c).arrAt 2 cfg0.N = mm 100000 128 16 (V c main_arg0) (V c main_arg2) :=
  (dat0 V c).arrAt_eq_of_cover 2 (mm 100000 128 16 (V c main_arg0) (V c main_arg2)) (fun t _ => flushed0_eq V c t) cover0

end Cert.KernelIdeal.Blocks

end
-- ==== Proof.Region1.lean ====
/-
  The second pallas_call's output array after its ten grid points.

  Point t reads rows 10000·t … 10000·t + 9999 of its first array A (100000 x 16), the whole bias row b (1 x 16) and the
  whole of W (16 x 1), and writes back rows 10000·t … 10000·t + 9999 of the output (100000 x 1). On the block it forms
  max(a + b, 0) — which is the block of the whole-array function  R(r, k) = max(A(r, k) + b(0, k), 0)  at the same rows — and
  multiplies it with W; so what it writes back is block t of  (r, c) ↦ Σ_k R(r, k) · W(k, c).  The ten blocks tile the
  output's rows, so the array ends holding that function.
-/
import proofs.«178024_j37598143709464_1_alg».proof.Proof.Gen.KernelIdeal.Frame
import proofs.«178024_j37598143709464_1_alg».proof.Proof.Payloads
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: the row block of the first input and of the output is the grid point's, every
    other block index is zero. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every one of the ten row blocks is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- The whole-array function the second pallas_call computes from its three arrays. -/
def fused (A : S100000x16.Idx → EReal) (b : S1x16.Idx → EReal) (W : S16x1.Idx → EReal) : S100000x1.Idx → EReal :=
  mm 100000 16 1 (reluRow 100000 16 A b) W

/-- What point t writes back is block t of that function of the arrays as the region finds them. -/
theorem flushed1_eq (c : Dev nD) (t : Fin cfg1.N) :
    (dat1 V c).flushed 3 t
      = ((cfg1.win 3).blk t).view.read (Elt Ideal) (fused (V c main_v42) (V c main_v43) (V c main_arg4)) := by
  show (cfg1.win 3).cut (grid1.coords t) ((dat1 V c).after 3 t) = _
  rw [after1_3]
  unfold out1_3
  rw [View.canon_unit_zero hz2]
  simp only [View.ld_unit_zero (S := S10000x16) hz2, View.ld_unit_zero (S := S1x16) hz2, View.ld_unit_zero (S := S16x1) hz2]
  obtain ⟨e0, e1, e2, e3, e4, e5, e6⟩ := idx_facts1 t
  funext j
  have hrow : ∀ y, reluRow 10000 16 (iblk1 V c 0 t) (iblk1 V c 1 t) y
      = reluRow 100000 16 (V c main_v42) (V c main_v43) (((cfg1.win 0).blk t).view.emb y) := fun y =>
    blk_row (fun a b => max (a + b) 0) (reluRow 10000 16 (iblk1 V c 0 t) (iblk1 V c 1 t)) (iblk1 V c 0 t) (iblk1 V c 1 t)
      (fun p q => rfl) (V c main_v42) (V c main_v43)
      ((cfg1.win 0).blk t).view.emb ((cfg1.win 1).blk t).view.emb ((cfg1.win 0).blk t).view.emb
      (fun y => rfl) (fun y => rfl) (fun y a => rfl)
      (fun y => by show win1_1.index t (1 : Fin 2) * 16 + 1 * (y 1).val = _; omega)
      (fun y => by show win1_0.index t (1 : Fin 2) * 16 + 1 * (y 1).val = _; omega) y
  refine blk_mm (k1_pay1 (iblk1 V c 0 t) (iblk1 V c 1 t) (iblk1 V c 2 t))
    (reluRow 10000 16 (iblk1 V c 0 t) (iblk1 V c 1 t)) (iblk1 V c 2 t)
    (fun p q => pay1_ix2 (iblk1 V c 0 t) (iblk1 V c 1 t) (iblk1 V c 2 t) p q)
    (reluRow 100000 16 (V c main_v42) (V c main_v43)) (V c main_arg4)
    ((cfg1.win 0).blk t).view.emb ((cfg1.win 2).blk t).view.emb ((cfg1.win 3).blk t).view.emb
    hrow (fun y => rfl) (win1_3.index t (0 : Fin 2) * 10000) ?_ ?_ ?_ ?_ ?_ ?_ j
  · intro y; show win1_0.index t (0 : Fin 2) * 10000 + 1 * (y 0).val = _; omega
  · intro y; show win1_0.index t (1 : Fin 2) * 16 + 1 * (y 1).val = _; omega
  · intro y; show win1_2.index t (0 : Fin 2) * 16 + 1 * (y 0).val = _; omega
  · intro y; show win1_2.index t (1 : Fin 2) * 1 + 1 * (y 1).val = _; omega
  · intro y; show win1_3.index t (0 : Fin 2) * 10000 + 1 * (y 0).val = _; omega
  · intro y; show win1_3.index t (1 : Fin 2) * 1 + 1 * (y 1).val = _; omega

/-- An index of the output is in point t's block iff each coordinate is in the block's range on its axis. -/
theorem mem_blk1 (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v44).slice (win1_3.rect t)).set ↔ _
  rw [View.set_slice_whole, Rect.mem_set_unit]
  exact Iff.rfl

/-- Every index of the output lies in some point's block: row r in block r / 10000. -/
theorem cover1 (i : S100000x1.Idx) : ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 1 ≤ (i 1).val ∧ (i 1).val < win1_3.index t (1 : Fin 2) * 1 + 1; omega

/-- The output array after the region: the fused function of the three input arrays as the region finds them. -/
theorem final1 (c : Dev nD) :
    (dat1 V c).arrAt 3 cfg1.N = fused (V c main_v42) (V c main_v43) (V c main_arg4) :=
  (dat1 V c).arrAt_eq_of_cover 3 (fused (V c main_v42) (V c main_v43) (V c main_arg4)) (fun t _ => flushed1_eq V c t) cover1

end Cert.KernelIdeal.Blocks

end
-- ==== Proof.Spec.lean ====
/-
  The two-layer graph convolution as one function of the six arguments, on the extended reals:

    out = propagate( max(propagate(x · W1) + b1, 0) · W2 ) + b2

  with propagate one round of message passing along the edge list (gather at the sources, scale by the edge
  coefficients, scatter-add at the destinations). Both programs compute this function: the reference with two plain
  products, the kernel with two pallas_calls tiled over the rows.
-/
import proofs.«178024_j37598143709464_1_alg».proof.Proof.HostParts
import proofs.«178024_j37598143709464_1_alg».proof.Proof.Region1

noncomputable section

namespace Cert.Spec

open Cert.KernelIdeal Cert.KernelIdeal.Facts₀ Cert.KernelIdeal.Facts Cert.KernelIdeal.Host Cert.KernelIdeal.Blocks
open Idealize.ShloMosaic Idealize.ShloMosaic.ValueIdx

/-- The whole computation. -/
def gcn (x : (⟨S100000x128, .f32⟩ : BufTy).Contents (Elt Ideal)) (e : (⟨S2x3200000, .i32⟩ : BufTy).Contents (Elt Ideal))
    (w1 : (⟨S128x16, .f32⟩ : BufTy).Contents (Elt Ideal)) (b1 : (⟨S16, .f32⟩ : BufTy).Contents (Elt Ideal))
    (w2 : (⟨S16x1, .f32⟩ : BufTy).Contents (Elt Ideal)) (b2 : (⟨S1, .f32⟩ : BufTy).Contents (Elt Ideal)) :
    (⟨S100000x1, .f32⟩ : BufTy).Contents (Elt Ideal) :=
  addBias1
    (propagate1
      (fused
        (propagate16 (mm 100000 128 16 x w1) (sources e) (destinations e) (edgeCoeff (sources e) (destinations e)))
        (shapeCast S1x16 b1 shapeCasts_S16_S1x16) w2)
      (sources e) (destinations e) (edgeCoeff (sources e) (destinations e)))
    b2

end Cert.Spec

end
-- ==== Proof.KernelValue.lean ====
/-
  The idealized kernel's result is the specification's function of the launch contents of the six arguments.

  Walk the result buffer back through the segment boundaries: the last stretch of host operations makes it the second
  round of message passing, plus the bias, on the second pallas_call's output; that output is the fused function of the
  first round's result, the bias row and W2; the first round is taken on the first pallas_call's output, which is the
  product x · W1. The lists of sources and destinations and the edge coefficients are computed once, before the first
  pallas_call, and no later segment writes them; nor does any segment write an argument.
-/
import proofs.«178024_j37598143709464_1_alg».proof.Proof.Gen.KernelIdeal.Frame
import proofs.«178024_j37598143709464_1_alg».proof.Proof.Fold1
import proofs.«178024_j37598143709464_1_alg».proof.Proof.Fold3
import proofs.«178024_j37598143709464_1_alg».proof.Proof.Fold5
import proofs.«178024_j37598143709464_1_alg».proof.Proof.Region0
import proofs.«178024_j37598143709464_1_alg».proof.Proof.Region1
import proofs.«178024_j37598143709464_1_alg».proof.Proof.Spec

set_option maxRecDepth 16384

noncomputable section

namespace Cert.KernelIdeal.Whole

open Cert.KernelIdeal Cert.KernelIdeal.Facts₀ Cert.KernelIdeal.Facts Cert.KernelIdeal.Gen Cert.KernelIdeal.Host
open Cert.KernelIdeal.Blocks Cert.KernelIdeal.Fold
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## When the first pallas_call has run -/

theorem at2_v3 : W2 m ρ c (Proc.devRef .tc main_v3) = sources (m ((c : Thread nD τ).loc main_arg1)) :=
  (W2_of_ne m ρ c main_v3 (by decide)).trans (w1_v3 m ρ c)
theorem at2_v6 : W2 m ρ c (Proc.devRef .tc main_v6) = destinations (m ((c : Thread nD τ).loc main_arg1)) :=
  (W2_of_ne m ρ c main_v6 (by decide)).trans (w1_v6 m ρ c)
theorem at2_v28 : W2 m ρ c (Proc.devRef .tc main_v28)
    = edgeCoeff (sources (m ((c : Thread nD τ).loc main_arg1))) (destinations (m ((c : Thread nD τ).loc main_arg1))) :=
  (W2_of_ne m ρ c main_v28 (by decide)).trans (w1_v28 m ρ c)
theorem at2_arg3 : W2 m ρ c (Proc.devRef .tc main_arg3) = m ((c : Thread nD τ).loc main_arg3) :=
  (W2_of_ne m ρ c main_arg3 (by decide)).trans (w1_arg3 m ρ c)
theorem at2_arg4 : W2 m ρ c (Proc.devRef .tc main_arg4) = m ((c : Thread nD τ).loc main_arg4) :=
  (W2_of_ne m ρ c main_arg4 (by decide)).trans (w1_arg4 m ρ c)
theorem at2_arg5 : W2 m ρ c (Proc.devRef .tc main_arg5) = m ((c : Thread nD τ).loc main_arg5) :=
  (W2_of_ne m ρ c main_arg5 (by decide)).trans (w1_arg5 m ρ c)

/-- Its output is the product of x and W1. -/
theorem at2_v29 : W2 m ρ c (Proc.devRef .tc main_v29)
    = mm 100000 128 16 (m ((c : Thread nD τ).loc main_arg0)) (m ((c : Thread nD τ).loc main_arg2)) := by
  refine (W2_arr m ρ c 2).trans ((final0 (V1 m ρ) c).trans ?_)
  show mm 100000 128 16 (W1 m ρ c (Proc.devRef .tc main_arg0)) (W1 m ρ c (Proc.devRef .tc main_arg2)) = _
  rw [w1_arg0, w1_arg2]

/-! ## When the second pallas_call is entered -/

theorem at3_v42 : W3 m ρ c (Proc.devRef .tc main_v42)
    = propagate16 (mm 100000 128 16 (m ((c : Thread nD τ).loc main_arg0)) (m ((c : Thread nD τ).loc main_arg2)))
        (sources (m ((c : Thread nD τ).loc main_arg1))) (destinations (m ((c : Thread nD τ).loc main_arg1)))
        (edgeCoeff (sources (m ((c : Thread nD τ).loc main_arg1))) (destinations (m ((c : Thread nD τ).loc main_arg1)))) := by
  rw [w3_v42, at2_v29, at2_v3, at2_v6, at2_v28]
theorem at3_v43 : W3 m ρ c (Proc.devRef .tc main_v43)
    = shapeCast S1x16 (m ((c : Thread nD τ).loc main_arg3)) Facts₀.shapeCasts_S16_S1x16 := by
  rw [w3_v43, at2_arg3]
theorem at3_arg4 : W3 m ρ c (Proc.devRef .tc main_arg4) = m ((c : Thread nD τ).loc main_arg4) :=
  (w3_arg4 m ρ c).trans (at2_arg4 m ρ c)

/-! ## When the second pallas_call has run -/

theorem at4_v3 : W4 m ρ c (Proc.devRef .tc main_v3) = sources (m ((c : Thread nD τ).loc main_arg1)) :=
  (W4_of_ne m ρ c main_v3 (by decide)).trans ((w3_v3 m ρ c).trans (at2_v3 m ρ c))
theorem at4_v6 : W4 m ρ c (Proc.devRef .tc main_v6) = destinations (m ((c : Thread nD τ).loc main_arg1)) :=
  (W4_of_ne m ρ c main_v6 (by decide)).trans ((w3_v6 m ρ c).trans (at2_v6 m ρ c))
theorem at4_v28 : W4 m ρ c (Proc.devRef .tc main_v28)
    = edgeCoeff (sources (m ((c : Thread nD τ).loc main_arg1))) (destinations (m ((c : Thread nD τ).loc main_arg1))) :=
  (W4_of_ne m ρ c main_v28 (by decide)).trans ((w3_v28 m ρ c).trans (at2_v28 m ρ c))
theorem at4_arg5 : W4 m ρ c (Proc.devRef .tc main_arg5) = m ((c : Thread nD τ).loc main_arg5) :=
  (W4_of_ne m ρ c main_arg5 (by decide)).trans ((w3_arg5 m ρ c).trans (at2_arg5 m ρ c))

/-- Its output is the fused function of the first round's result, the bias row and W2. -/
theorem at4_v44 : W4 m ρ c (Proc.devRef .tc main_v44)
    = fused
        (propagate16 (mm 100000 128 16 (m ((c : Thread nD τ).loc main_arg0)) (m ((c : Thread nD τ).loc main_arg2)))
          (sources (m ((c : Thread nD τ).loc main_arg1))) (destinations (m ((c : Thread nD τ).loc main_arg1)))
          (edgeCoeff (sources (m ((c : Thread nD τ).loc main_arg1))) (destinations (m ((c : Thread nD τ).loc main_arg1)))))
        (shapeCast S1x16 (m ((c : Thread nD τ).loc main_arg3)) Facts₀.shapeCasts_S16_S1x16)
        (m ((c : Thread nD τ).loc main_arg4)) := by
  refine (W4_arr m ρ c 3).trans ((final1 (V3 m ρ) c).trans ?_)
  show fused (W3 m ρ c (Proc.devRef .tc main_v42)) (W3 m ρ c (Proc.devRef .tc main_v43)) (W3 m ρ c (Proc.devRef .tc main_arg4)) = _
  rw [at3_v42, at3_v43, at3_arg4]

/-! ## At the return -/

/-- The result buffer holds the specification's function of the arguments' launch contents. -/
theorem result_eq : W5 m ρ c (Proc.devRef .tc main_v59)
    = Cert.Spec.gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [w5_v59, at4_v44, at4_v3, at4_v6, at4_v28, at4_arg5]
  rfl

end Cert.KernelIdeal.Whole

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibHostDense.lean ====
/-
  A HOST DENSE LAYER READ AT A (ROW, COLUMN), at the extended reals.

  For x : [M, K], w : [K, N] under plain dimension numbers, a bias vector b : [N] recast as a row [1, N] and broadcast
  down the M rows, and the zero scalar broadcast over [M, N]:

  * hostDot_ix2        : (x · w)(r, c) = Σ_k x(r, k) · w(k, c);
  * hostAffine_ix2     : (x · w + bias)(r, c) = Σ_k x(r, k) · w(k, c) + b c;
  * hostAffineRelu_ix2 : max(x · w + bias, 0)(r, c) = max(Σ_k x(r, k) · w(k, c) + b c, 0);
  * hostBiasRelu_ix2   : max(a + bias, 0)(r, c) = max(a(r, c) + b c, 0) for any array a : [M, N];
  * hostZeros_ix2      : the broadcast zero scalar is 0 at every (r, c).
-/
import proofs.«178024_j37598143709464_1_alg».proof.Proof.LibDotIx2
import proofs.«178024_j37598143709464_1_alg».proof.Proof.LibBroadcastInDim

noncomputable section

open scoped BigOperators

namespace Idealize.ShloMosaic.ValueIdx

open Idealize.ShloMosaic

/-- The host's plain product at (r, c) is the sum over the inner position. -/
theorem hostDot_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (r : Fin M) (c : Fin N) :
    Host.dotGeneral d prec x w (ix2 r c) = ∑ k : Fin K, (x (ix2 r k) : EReal) * (w (ix2 k c) : EReal) := by
  simp only [Host.dotGeneral]
  exact dotGeneral_ix2_any hd _ _ x w r c

/-- The zero scalar broadcast over a two-axis shape is 0 everywhere. -/
theorem hostZeros_ix2 {M N : ℕ} (h0 : (⟨0, ![]⟩ : Shape).BroadcastsInDim (⟨2, ![M, N]⟩ : Shape) ![]) (i : (⟨2, ![M, N]⟩ : Shape).Idx) :
    (broadcastInDim (⟨2, ![M, N]⟩ : Shape) ![] h0 (constant (F := Ideal) (⟨0, ![]⟩ : Shape) .f32 0x00000000#32) i : EReal) = 0 := by
  rw [broadcastInDim_scalar_apply]
  exact Ideal.ofBits_zero_f32

/-- A bias vector recast as a row and broadcast down the rows, at (r, c), is its entry c. -/
theorem hostBiasRow_ix2 {M N : ℕ} (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    broadcastInDim (⟨2, ![M, N]⟩ : Shape) ![0, 1] h2 (broadcastInDim (⟨2, ![1, N]⟩ : Shape) ![1] h1 b) (ix2 r c) = b (ix1 c) := by
  rw [broadcastInDim_row_mat_apply, broadcastInDim_vec_row_apply]

/-- Bias and relu on any array: max(a + bias, 0) at (r, c). -/
theorem hostBiasRelu_ix2 {M N : ℕ} (a : FVec Ideal (⟨2, ![M, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf a (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((a (ix2 r c) : EReal) + (b (ix1 c) : EReal)) 0 := by
  show FloatOps.maximumf (FloatOps.addf (a (ix2 r c)) (broadcastInDim (⟨2, ![M, N]⟩ : Shape) ![0, 1] h2 (broadcastInDim (⟨2, ![1, N]⟩ : Shape) ![1] h1 b) (ix2 r c)))
      (broadcastInDim (⟨2, ![M, N]⟩ : Shape) ![] h0 (constant (F := Ideal) (⟨0, ![]⟩ : Shape) .f32 0x00000000#32) (ix2 r c)) = _
  rw [hostBiasRow_ix2, hostZeros_ix2, Ideal.addf_def, Ideal.maximumf_def]

/-- The host's dense layer x · w + bias at (r, c). -/
theorem hostAffine_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    addf (Host.dotGeneral d prec x w) (broadcastInDim (⟨2, ![M, N]⟩ : Shape) ![0, 1] h2 (broadcastInDim (⟨2, ![1, N]⟩ : Shape) ![1] h1 b)) (ix2 r c)
      = (∑ k : Fin K, (x (ix2 r k) : EReal) * (w (ix2 k c) : EReal)) + (b (ix1 c) : EReal) := by
  show FloatOps.addf (Host.dotGeneral d prec x w (ix2 r c)) (broadcastInDim (⟨2, ![M, N]⟩ : Shape) ![0, 1] h2 (broadcastInDim (⟨2, ![1, N]⟩ : Shape) ![1] h1 b) (ix2 r c)) = _
  rw [hostDot_ix2 hd, hostBiasRow_ix2, Ideal.addf_def]

/-- The host's dense layer with relu, max(x · w + bias, 0), at (r, c). -/
theorem hostAffineRelu_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf (Host.dotGeneral d prec x w) (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((∑ k : Fin K, (x (ix2 r k) : EReal) * (w (ix2 k c) : EReal)) + (b (ix1 c) : EReal)) 0 := by
  show FloatOps.maximumf (addf (Host.dotGeneral d prec x w) (broadcastInDim (⟨2, ![M, N]⟩ : Shape) ![0, 1] h2 (broadcastInDim (⟨2, ![1, N]⟩ : Shape) ![1] h1 b)) (ix2 r c))
      (broadcastInDim (⟨2, ![M, N]⟩ : Shape) ![] h0 (constant (F := Ideal) (⟨0, ![]⟩ : Shape) .f32 0x00000000#32) (ix2 r c)) = _
  rw [hostAffine_ix2 hd, hostZeros_ix2, Ideal.maximumf_def]

end Idealize.ShloMosaic.ValueIdx

end
-- ==== Proof.RefValue.lean ====
/-
  The reference, stage by stage, in the vocabulary of the kernel's host code.

  The reference computes the same lists of sources and destinations, the same node weights and edge coefficients (it
  recomputes the coefficients for its second layer, by the same operations), and the same two rounds of message passing;
  where the kernel launches a pallas_call it has a plain product:

    layer 1:  x · W1                                                  (a dot_general)
    layer 2:  max(P + b1, 0) · W2   with P the first round's result   (bias row broadcast, maximum with zero, dot_general)

  At the extended reals a dot_general at (r, c) is the sum over the inner position of the products, so layer 1 is the
  function mm of the two arrays and layer 2 is the function fused of P, of b1 recast as a 1 x 16 row, and of W2.
-/
import proofs.«178024_j37598143709464_1_alg».proof.Proof.Gen.ReferenceIdeal.Read
import proofs.«178024_j37598143709464_1_alg».proof.Proof.HostParts
import proofs.«178024_j37598143709464_1_alg».proof.Proof.Region1
import proofs.«178024_j37598143709464_1_alg».proof.Proof.Spec
import proofs.«178024_j37598143709464_1_alg».proof.Proof.LibHostDense
import Idealize.ShloMosaic.Lib.Pipeline.Value

set_option maxRecDepth 16384

noncomputable section

open scoped BigOperators

namespace Cert.ReferenceIdeal.RefValue

open Cert.ReferenceIdeal Cert.ReferenceIdeal.Facts₀ Cert.ReferenceIdeal.Facts Cert.ReferenceIdeal.Read Idealize.ShloMosaic Idealize.ShloMosaic.ValueIdx
open Cert.KernelIdeal.Host Cert.KernelIdeal.Blocks

section Stages
variable {F : FTy → Type} [FloatOps F]
variable (x0 : (⟨S100000x128, .f32⟩ : BufTy).Contents (Elt F)) (e : (⟨S2x3200000, .i32⟩ : BufTy).Contents (Elt F))
  (x2 : (⟨S128x16, .f32⟩ : BufTy).Contents (Elt F)) (x3 : (⟨S16, .f32⟩ : BufTy).Contents (Elt F))
  (x4 : (⟨S16x1, .f32⟩ : BufTy).Contents (Elt F)) (x5 : (⟨S1, .f32⟩ : BufTy).Contents (Elt F))

/-- The reference's list of sources is the kernel's. -/
theorem src_eq : val_main_v3 (F := F) e = sources e := rfl
/-- The reference's list of destinations is the kernel's. -/
theorem dst_eq : val_main_v6 (F := F) e = destinations e := rfl
/-- The coefficients the reference computes for its first layer … -/
theorem coeff1_eq : val_main_v29 (F := F) e = edgeCoeff (val_main_v3 (F := F) e) (val_main_v6 (F := F) e) := rfl
/-- … and again for its second layer are the kernel's. -/
theorem coeff2_eq : val_main_v62 (F := F) e = edgeCoeff (val_main_v3 (F := F) e) (val_main_v6 (F := F) e) := rfl
/-- The reference's first round of message passing is the kernel's, on the reference's first product. -/
theorem round1_eq : val_main_v42 (F := F) x0 e x2
    = propagate16 (val_main_v14 (F := F) x0 x2) (val_main_v3 (F := F) e) (val_main_v6 (F := F) e) (val_main_v29 (F := F) e) := rfl
/-- The reference's second round is the kernel's, on the reference's second product. -/
theorem round2_eq : val_main_v74 (F := F) x0 e x2 x3 x4
    = propagate1 (val_main_v47 (F := F) x0 e x2 x3 x4) (val_main_v3 (F := F) e) (val_main_v6 (F := F) e) (val_main_v62 (F := F) e) := rfl
/-- The reference's last addition is the kernel's. -/
theorem out_eq : val_main_v77 (F := F) x0 e x2 x3 x4 x5 = addBias1 (val_main_v74 (F := F) x0 e x2 x3 x4) x5 := rfl

end Stages

/-- The reference's first product contracts the left operand's columns with the right operand's rows. -/
theorem plainR0 : PlainDot dot_S100000x128_S128x16_S100000x16_1_0_0_1_n_n :=
  ⟨rfl, rfl, lhs_main_v14_0, lhs_main_v14_1, rhs_main_v14_0, rhs_main_v14_1⟩
/-- So does its second. -/
theorem plainR1 : PlainDot dot_S100000x16_S16x1_S100000x1_1_0_0_1_n_n :=
  ⟨rfl, rfl, lhs_main_v47_0, lhs_main_v47_1, rhs_main_v47_0, rhs_main_v47_1⟩

/-- Layer 1 at the extended reals: the product of the two arrays. -/
theorem layer1_eq (x0 : (⟨S100000x128, .f32⟩ : BufTy).Contents (Elt Ideal)) (x2 : (⟨S128x16, .f32⟩ : BufTy).Contents (Elt Ideal)) :
    val_main_v14 (F := Ideal) x0 x2 = mm 100000 128 16 x0 x2 := by
  funext i
  obtain ⟨p, q, rfl⟩ : ∃ (p : Fin 100000) (q : Fin 16), i = ix2 p q := ⟨i 0, i 1, eq_ix2 i⟩
  rw [mm_ix2]
  unfold val_main_v14
  exact hostDot_ix2 plainR0 none x0 x2 p q

/-- A 16-vector recast as a 1 x 16 row reads, at (0, k), the vector at k. -/
theorem row_ix2 (b : S16.Idx → EReal) (h : S16.ShapeCasts S1x16) (k : Fin 16) :
    shapeCast S1x16 b h (ix2 (0 : Fin 1) k) = b (ix1 k) := by
  refine shapeCast_apply b h (ix2 (0 : Fin 1) k) (ix1 k) ?_
  rw [Shape.rowMajor_val_one, Shape.rowMajor_val_two]
  show k.val = 0 * 16 + k.val
  omega

/-- Layer 2 at the extended reals: bias, maximum with zero and product are the fused function of the round's result, the
    bias recast as a row, and the weights. -/
theorem layer2_eq (a : FVec Ideal S100000x16 .f32) (x3 : FVec Ideal S16 .f32) (x4 : FVec Ideal S16x1 .f32) (h : S16.ShapeCasts S1x16) :
    Host.dotGeneral dot_S100000x16_S16x1_S100000x1_1_0_0_1_n_n none
      (maximumf (addf a (broadcastInDim S100000x16 ![0, 1] bcast_S1x16_S100000x16_0_1 (broadcastInDim S1x16 ![1] bcast_S16_S1x16_1 x3)))
        (broadcastInDim S100000x16 ![] bcast_S_S100000x16 (constant (F := Ideal) S_ .f32 0x00000000#32))) x4
      = fused a (shapeCast S1x16 x3 h) x4 := by
  funext i
  obtain ⟨p, q, rfl⟩ : ∃ (p : Fin 100000) (q : Fin 1), i = ix2 p q := ⟨i 0, i 1, eq_ix2 i⟩
  rw [hostDot_ix2 plainR1]
  unfold fused
  rw [mm_ix2]
  refine Finset.sum_congr rfl fun k _ => ?_
  rw [hostBiasRelu_ix2, reluRow_ix2, row_ix2]

/-- The reference's second product, stage by stage. -/
theorem dense2_eq (x0 : (⟨S100000x128, .f32⟩ : BufTy).Contents (Elt Ideal)) (e : (⟨S2x3200000, .i32⟩ : BufTy).Contents (Elt Ideal))
    (x2 : (⟨S128x16, .f32⟩ : BufTy).Contents (Elt Ideal)) (x3 : (⟨S16, .f32⟩ : BufTy).Contents (Elt Ideal))
    (x4 : (⟨S16x1, .f32⟩ : BufTy).Contents (Elt Ideal)) (h : S16.ShapeCasts S1x16) :
    val_main_v47 (F := Ideal) x0 e x2 x3 x4 = fused (val_main_v42 (F := Ideal) x0 e x2) (shapeCast S1x16 x3 h) x4 :=
  layer2_eq (val_main_v42 (F := Ideal) x0 e x2) x3 x4 h

/-- The reference's result is the specification's function of the six arguments. -/
theorem result_eq (x0 : (⟨S100000x128, .f32⟩ : BufTy).Contents (Elt Ideal)) (e : (⟨S2x3200000, .i32⟩ : BufTy).Contents (Elt Ideal))
    (x2 : (⟨S128x16, .f32⟩ : BufTy).Contents (Elt Ideal)) (x3 : (⟨S16, .f32⟩ : BufTy).Contents (Elt Ideal))
    (x4 : (⟨S16x1, .f32⟩ : BufTy).Contents (Elt Ideal)) (x5 : (⟨S1, .f32⟩ : BufTy).Contents (Elt Ideal)) :
    val_main_v77 (F := Ideal) x0 e x2 x3 x4 x5 = Cert.Spec.gcn x0 e x2 x3 x4 x5 := by
  rw [out_eq, round2_eq, dense2_eq x0 e x2 x3 x4 Cert.KernelIdeal.Facts₀.shapeCasts_S16_S1x16, round1_eq, layer1_eq,
    coeff2_eq, coeff1_eq, src_eq, dst_eq]
  rfl

end Cert.ReferenceIdeal.RefValue

end
-- ==== Proof.lean ====
/-
  A two-layer graph convolution on 100000 nodes and 3200000 directed edges (plus a self-loop per node),

    out = propagate( max(propagate(x · W1) + b1, 0) · W2 ) + b2,

  where propagate gathers a node table's rows at the edges' sources, scales row e by deg(src e)^(-1/2) · deg(dst e)^(-1/2)
  and scatter-adds it into the row of the edge's destination. The kernel computes the two dense steps — x · W1, and
  max(· + b1, 0) · W2 — each in a pallas_call tiled over ten blocks of 10000 rows, its operands narrowed to bf16 and
  multiplied on the matrix unit into a zero accumulator; the reference computes them as plain products. The host code
  around them (edge lists, degrees, coefficients, gathers and scatter-adds) is operation for operation the same in both.

  On the extended reals a narrowing is the identity and either kind of product at (r, c) is the sum over the inner
  position, so each pallas_call's blocks are the blocks of one whole-array function (Region0, Region1), and both
  programs end at the same function gcn of the six arguments (KernelValue for the kernel, read off its run through the
  five segments of @main; RefValue for the reference, stage by stage). No step moves a factor across a sum or cancels,
  so the finiteness of the inputs is never used.

  The three frame claims are the generated frame proofs (the reference's is its generated run with the result dropped);
  the idealization rewrote no operation, so its claim is trivial.
-/
import proofs.«178024_j37598143709464_1_alg».proof.Defs
import proofs.«178024_j37598143709464_1_alg».proof.Proof.Gen.Kernel
import proofs.«178024_j37598143709464_1_alg».proof.Proof.Gen.Kernel.Skeleton
import proofs.«178024_j37598143709464_1_alg».proof.Proof.Gen.Kernel.Launch
import proofs.«178024_j37598143709464_1_alg».proof.Proof.Gen.Kernel.Points
import proofs.«178024_j37598143709464_1_alg».proof.Proof.Gen.Kernel.Frame
import proofs.«178024_j37598143709464_1_alg».proof.Proof.Gen.KernelIdeal
import proofs.«178024_j37598143709464_1_alg».proof.Proof.Gen.KernelIdeal.Skeleton
import proofs.«178024_j37598143709464_1_alg».proof.Proof.Gen.KernelIdeal.Launch
import proofs.«178024_j37598143709464_1_alg».proof.Proof.Gen.KernelIdeal.Points
import proofs.«178024_j37598143709464_1_alg».proof.Proof.Gen.KernelIdeal.Frame
import proofs.«178024_j37598143709464_1_alg».proof.Proof.Gen.ReferenceIdeal
import proofs.«178024_j37598143709464_1_alg».proof.Proof.Gen.Pre_finite_inputs
import proofs.«178024_j37598143709464_1_alg».proof.Proof.Gen.ReferenceIdeal.Run
import proofs.«178024_j37598143709464_1_alg».proof.Proof.Gen.ReferenceIdeal.Read
import proofs.«178024_j37598143709464_1_alg».proof.Proof.KernelRun
import proofs.«178024_j37598143709464_1_alg».proof.Proof.KernelValue
import proofs.«178024_j37598143709464_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments both idealized programs end with the result buffer at gcn of the
    arguments: the kernel by its run through the five segments, the reference by its run read stage by stage. -/
theorem algebraic : Cert.algebraic_KernelIdeal_ReferenceIdeal := by
  intro m ρ m' ρ' _ hagree
  refine ⟨fun c => Cert.Spec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Run.run_main (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5⟩ := hagree c
    rw [(h c).1, Cert.ReferenceIdeal.Read.val_main_v77_eq, Cert.ReferenceIdeal.RefValue.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
